-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S800000 : Shape := ⟨1, ![800000]⟩
abbrev S64x128 : Shape := ⟨2, ![64, 128]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S100000x128 .f32) (main_arg1 : IVec S800000 32) (main_arg2 : IVec S800000 32) (main_arg3 : FVec F S64x128 .f32) (main_arg4 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S64x128 .f32 := Host.absf main_arg3
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S100000x128 : Shape := ⟨2, ![100000, 128]⟩
abbrev S800000 : Shape := ⟨1, ![800000]⟩
abbrev S64x128 : Shape := ⟨2, ![64, 128]⟩
abbrev S64 : Shape := ⟨1, ![64]⟩
abbrev S100000x64 : Shape := ⟨2, ![100000, 64]⟩
abbrev S5000x128 : Shape := ⟨2, ![5000, 128]⟩
abbrev S5000x64 : Shape := ⟨2, ![5000, 64]⟩
abbrev S128x64 : Shape := ⟨2, ![128, 64]⟩
abbrev S_ : Shape := ⟨0, ![]⟩
abbrev S800000x1 : Shape := ⟨2, ![800000, 1]⟩
abbrev S800000x64 : Shape := ⟨2, ![800000, 64]⟩
abbrev S100000 : Shape := ⟨1, ![100000]⟩
abbrev S100000x1 : Shape := ⟨2, ![100000, 1]⟩
abbrev S1x64 : Shape := ⟨2, ![1, 64]⟩
abbrev S5000x1 : Shape := ⟨2, ![5000, 1]⟩

abbrev nBuf : Space → Nat
  | .hbm => 28
  | .vmem => 14
  | .smem => 0
  | _ => 0

abbrev bufTy : (tb : Table) → Fin (tcTables nBuf tb) → BufTy
  | .hbm, ⟨0, _⟩ => ⟨S100000x128, .f32⟩
  | .hbm, ⟨1, _⟩ => ⟨S800000, .i32⟩
  | .hbm, ⟨2, _⟩ => ⟨S800000, .i32⟩
  | .hbm, ⟨3, _⟩ => ⟨S64x128, .f32⟩
  | .hbm, ⟨4, _⟩ => ⟨S64, .f32⟩
  | .hbm, ⟨5, _⟩ => ⟨S100000x64, .f32⟩
  | .hbm, ⟨6, _⟩ => ⟨S_, .i32⟩
  | .hbm, ⟨7, _⟩ => ⟨S800000, .i32⟩
  | .hbm, ⟨8, _⟩ => ⟨S800000, .i1⟩
  | .hbm, ⟨9, _⟩ => ⟨S_, .i32⟩
  | .hbm, ⟨10, _⟩ => ⟨S800000, .i32⟩
  | .hbm, ⟨11, _⟩ => ⟨S800000, .i32⟩
  | .hbm, ⟨12, _⟩ => ⟨S800000, .i32⟩
  | .hbm, ⟨13, _⟩ => ⟨S800000x1, .i32⟩
  | .hbm, ⟨14, _⟩ => ⟨S800000x64, .f32⟩
  | .hbm, ⟨15, _⟩ => ⟨S_, .f32⟩
  | .hbm, ⟨16, _⟩ => ⟨S100000x64, .f32⟩
  | .hbm, ⟨17, _⟩ => ⟨S800000x1, .i32⟩
  | .hbm, ⟨18, _⟩ => ⟨S100000x64, .f32⟩
  | .hbm, ⟨19, _⟩ => ⟨S_, .f32⟩
  | .hbm, ⟨20, _⟩ => ⟨S800000, .f32⟩
  | .hbm, ⟨21, _⟩ => ⟨S_, .f32⟩
  | .hbm, ⟨22, _⟩ => ⟨S100000, .f32⟩
  | .hbm, ⟨23, _⟩ => ⟨S800000x1, .i32⟩
  | .hbm, ⟨24, _⟩ => ⟨S100000, .f32⟩
  | .hbm, ⟨25, _⟩ => ⟨S100000x1, .f32⟩
  | .hbm, ⟨26, _⟩ => ⟨S1x64, .f32⟩
  | .hbm, ⟨27, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S64x128, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x1, .f32⟩
  | .local _ .vmem, ⟨10, _⟩ => ⟨S5000x1, .f32⟩
  | .local _ .vmem, ⟨11, _⟩ => ⟨S1x64, .f32⟩
  | .local _ .vmem, ⟨12, _⟩ => ⟨S5000x64, .f32⟩
  | .local _ .vmem, ⟨13, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  transposes_S64x128_p1_0_S128x64 : S64x128.Transposes [1, 0] S128x64
  inb_S5000x64_S5000x64_0_0 : ∀ a, (![0, 0] : Fin 2 → Nat) a + S5000x64.size a ≤ S5000x64.size a
  h_S5000x64 : 0 < S5000x64.numel
  bcast_S_S800000 : S_.BroadcastsInDim S800000 (![] : Fin 0 → Fin S800000.rank)
  bcast_S800000_S800000x1_0 : S800000.BroadcastsInDim S800000x1 (![0] : Fin 1 → Fin S800000x1.rank)
  bcast_S_S100000x64 : S_.BroadcastsInDim S100000x64 (![] : Fin 0 → Fin S100000x64.rank)
  bcast_S_S100000 : S_.BroadcastsInDim S100000 (![] : Fin 0 → Fin S100000.rank)
  shapeCasts_S100000_S100000x1 : S100000.ShapeCasts S100000x1
  shapeCasts_S64_S1x64 : S64.ShapeCasts S1x64
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  dot_S5000x128_S128x64_S5000x64_1_0_0_1_n_n_wf : DotDims.WF S5000x128 S128x64 S5000x64 [1] [0] [0] [1] [] []
  gather_S100000x64_S800000x1_S800000x64_1_0_n_n_0_1_164_wf : GatherDims.WF S100000x64 S800000x1 S800000x64 [1] [0] [] [0] [] 1 ![1, 64]
  scatter_S100000x64_S800000x1_S800000x64_1_0_0_1_wf : ScatterDims.WF S100000x64 S800000x1 S800000x64 [1] [0] [0] 1
  scatter_S100000_S800000x1_S800000_n_0_0_1_wf : ScatterDims.WF S100000 S800000x1 S800000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S100000x64.size a
  hwx1_4 : ∀ i : grid1.Coords, EltTy.bits .f32 = 32 ∨ (Rect.block (s := S100000x64) S5000x64.size (cc1_transform_4 i) (hinb1_4 i)).WholeWords (EltTy.packing .f32)

variable [Facts₀]

def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S800000x1_S800000x64_1_0_n_n_0_1_164 : GatherDims S100000x64 S800000x1 S800000x64 where
  offsetDims := [1]
  collapsedSliceDims := [0]
  operandBatchingDims := []
  startIndicesBatchingDims := []
  startIndexMap := [0]
  indexVectorDim := 1
  sliceSizes := ![1, 64]
  wf := gather_S100000x64_S800000x1_S800000x64_1_0_n_n_0_1_164_wf
def scatter_S100000x64_S800000x1_S800000x64_1_0_0_1 : ScatterDims S100000x64 S800000x1 S800000x64 where
  updateWindowDims := [1]
  insertedWindowDims := [0]
  scatterDimsToOperandDims := [0]
  indexVectorDim := 1
  wf := scatter_S100000x64_S800000x1_S800000x64_1_0_0_1_wf
def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v0) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v15) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v16) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v17) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x128 : Shape := ⟨2, ![100000, 128]⟩
abbrev S800000 : Shape := ⟨1, ![800000]⟩
abbrev S64x128 : Shape := ⟨2, ![64, 128]⟩
abbrev S64 : Shape := ⟨1, ![64]⟩
abbrev S_ : Shape := ⟨0, ![]⟩
abbrev S800000x1 : Shape := ⟨2, ![800000, 1]⟩
abbrev S800000x128 : Shape := ⟨2, ![800000, 128]⟩
abbrev S100000 : Shape := ⟨1, ![100000]⟩
abbrev S100000x1 : Shape := ⟨2, ![100000, 1]⟩
abbrev S100000x64 : Shape := ⟨2, ![100000, 64]⟩
abbrev S1x64 : Shape := ⟨2, ![1, 64]⟩

abbrev nBuf : Space → Nat
  | .hbm => 35
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S800000, .i32⟩
  | .hbm, ⟨2, _⟩ => ⟨S800000, .i32⟩
  | .hbm, ⟨3, _⟩ => ⟨S64x128, .f32⟩
  | .hbm, ⟨4, _⟩ => ⟨S64, .f32⟩
  | .hbm, ⟨5, _⟩ => ⟨S_, .i32⟩
  | .hbm, ⟨6, _⟩ => ⟨S800000, .i32⟩
  | .hbm, ⟨7, _⟩ => ⟨S800000, .i1⟩
  | .hbm, ⟨8, _⟩ => ⟨S_, .i32⟩
  | .hbm, ⟨9, _⟩ => ⟨S800000, .i32⟩
  | .hbm, ⟨10, _⟩ => ⟨S800000, .i32⟩
  | .hbm, ⟨11, _⟩ => ⟨S800000, .i32⟩
  | .hbm, ⟨12, _⟩ => ⟨S800000x1, .i32⟩
  | .hbm, ⟨13, _⟩ => ⟨S800000x128, .f32⟩
  | .hbm, ⟨14, _⟩ => ⟨S_, .f32⟩
  | .hbm, ⟨15, _⟩ => ⟨S100000x128, .f32⟩
  | .hbm, ⟨16, _⟩ => ⟨S800000x1, .i32⟩
  | .hbm, ⟨17, _⟩ => ⟨S100000x128, .f32⟩
  | .hbm, ⟨18, _⟩ => ⟨S_, .f32⟩
  | .hbm, ⟨19, _⟩ => ⟨S800000, .f32⟩
  | .hbm, ⟨20, _⟩ => ⟨S_, .f32⟩
  | .hbm, ⟨21, _⟩ => ⟨S100000, .f32⟩
  | .hbm, ⟨22, _⟩ => ⟨S800000x1, .i32⟩
  | .hbm, ⟨23, _⟩ => ⟨S100000, .f32⟩
  | .hbm, ⟨24, _⟩ => ⟨S100000x128, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S100000x1, .f32⟩
  | .hbm, ⟨29, _⟩ => ⟨S100000x128, .f32⟩
  | .hbm, ⟨30, _⟩ => ⟨S100000x128, .f32⟩
  | .hbm, ⟨31, _⟩ => ⟨S100000x64, .f32⟩
  | .hbm, ⟨32, _⟩ => ⟨S1x64, .f32⟩
  | .hbm, ⟨33, _⟩ => ⟨S100000x64, .f32⟩
  | .hbm, ⟨34, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  scatter_S100000_S800000x1_S800000_n_0_0_1_wf : ScatterDims.WF S100000 S800000x1 S800000 [] [0] [0] 1
  dot_S100000x128_S64x128_S100000x64_1_1_0_0_n_n_wf : DotDims.WF S100000x128 S64x128 S100000x64 [1] [1] [0] [0] [] []

variable [Facts₀]

def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def dot_S100000x128_S64x128_S100000x64_1_1_0_0_n_n : DotDims S100000x128 S64x128 S100000x64 where
  lhsContracting := [1]
  rhsContracting := [1]
  lhsNonContracting := [0]
  rhsNonContracting := [0]
  lhsBatch := []
  rhsBatch := []
  wf := dot_S100000x128_S64x128_S100000x64_1_1_0_0_n_n_wf

class Facts : Prop extends Facts₀ where

variable [Facts]
-- ==== Proof.Spec.lean ====
/-
  Mean aggregation over a graph's in-edges followed by a linear layer, in two arrangements.

  A graph has `N` nodes and `E` edges; edge `e` brings the feature row of node `row e`, and `nb p` is the set of edges
  that arrive at node `p`. With `x : [N, K]` the node features, `w : [C, K]` the layer's weights, `b : [C]` its bias and
  `deg p` the number of edges arriving at `p`, the layer's output at node `p`, class `q` is

    Σ_k ((Σ_{e ∈ nb p} x (row e, k) + x (p, k)) / (deg p + 1)) · w (q, k) + b q          (aggregate, then project)

  and, because the product with `w` is linear, also

    (Σ_{e ∈ nb p} y (row e, q) + y (p, q)) / (deg p + 1) + b q,   y (v, q) = Σ_k x (v, k) · w (q, k)   (project, then aggregate).

  Both are stated here on the extended reals exactly as the two programs compute them: every sum over edges starts
  from the zero word, and the divisor is `deg p` plus the word of one.
-/
import Idealize.ShloMosaic.PureOps.Ideal
import Idealize.ShloMosaic.Lib.ValueIdx

noncomputable section

namespace Cert.Sage

open Idealize.ShloMosaic Idealize.ShloMosaic.ValueIdx
open scoped BigOperators

/-- The word of `+0.0`, from which every sum over edges starts. -/
abbrev zeroW : EReal := Ideal.ofBits .f32 0x00000000#32
/-- The word of `1.0`, added to the in-degree. -/
abbrev oneW : EReal := Ideal.ofBits .f32 0x3F800000#32

variable {N E K C : Nat}

/-- Aggregate the neighbours' features and the node's own, divide by the in-degree plus one, then apply the layer. -/
def aggProject (row : Fin E → Fin N) (nb : Fin N → Finset (Fin E)) (deg : Fin N → EReal)
    (x : (⟨2, ![N, K]⟩ : Shape).Idx → EReal) (w : (⟨2, ![C, K]⟩ : Shape).Idx → EReal)
    (b : (⟨1, ![C]⟩ : Shape).Idx → EReal) (p : Fin N) (q : Fin C) : EReal :=
  (∑ k : Fin K, Ideal.div ((zeroW + ∑ e ∈ nb p, x (ix2 (row e) k)) + x (ix2 p k)) (deg p + oneW) * w (ix2 q k))
    + b (ix1 q)

/-- The layer's product of one node's features with the weights of class `q`. -/
def project (x : (⟨2, ![N, K]⟩ : Shape).Idx → EReal) (w : (⟨2, ![C, K]⟩ : Shape).Idx → EReal)
    (v : Fin N) (q : Fin C) : EReal :=
  ∑ k : Fin K, x (ix2 v k) * w (ix2 q k)

/-- Apply the layer's product first, then aggregate the projected rows, divide, and add the bias. -/
def projectAgg (row : Fin E → Fin N) (nb : Fin N → Finset (Fin E)) (deg : Fin N → EReal)
    (x : (⟨2, ![N, K]⟩ : Shape).Idx → EReal) (w : (⟨2, ![C, K]⟩ : Shape).Idx → EReal)
    (b : (⟨1, ![C]⟩ : Shape).Idx → EReal) (p : Fin N) (q : Fin C) : EReal :=
  Ideal.div ((zeroW + ∑ e ∈ nb p, project x w (row e) q) + project x w p q) (deg p + oneW) + b (ix1 q)

end Cert.Sage

end
-- ==== Proof.Linear.lean ====
/-
  The linear layer commutes with mean aggregation, and a scatter of ones into zeros counts.

  Two facts of pure mathematics about the definitions of Spec.lean. First: with real features and weights and a nonzero
  real divisor `d`, projecting after aggregating,

    Σ_k ((Σ_e x (row e, k) + x (p, k)) / d) · w (q, k),

  equals aggregating after projecting,

    (Σ_e Σ_k x (row e, k) · w (q, k) + Σ_k x (p, k) · w (q, k)) / d,

  because both are finite sums of real products and the division is the product with `1 / d`. Second: adding a one for
  every update that lands on an entry of a zero array leaves a natural number there, and a natural number plus one is a
  nonzero real.
-/
import proofs.«180629_j78245714198552_2_alg».proof.Proof.Spec

noncomputable section

namespace Cert.Sage

open Idealize.ShloMosaic Idealize.ShloMosaic.ValueIdx
open scoped BigOperators

/-- The word of `+0.0` denotes the real zero. -/
theorem zeroW_eq : zeroW = 0 := by
  simp [zeroW, Ideal.ofBits, Ideal.ieee]

/-- The word of `1.0` denotes the real one. -/
theorem oneW_eq : oneW = ((1 : ℝ) : EReal) := by
  simp [oneW, Ideal.ofBits, Ideal.ieee, -EReal.coe_mul]; norm_num

/-- The coercion of a finite sum of reals is the sum of the coercions. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The layer's product is linear, so it may be applied before or after the aggregation: with real features and weights and a
    nonzero real divisor the two arrangements agree. The bias is any extended real. -/
theorem projectAgg_eq_aggProject {N E K C : Nat} (row : Fin E → Fin N) (nb : Fin N → Finset (Fin E)) (deg : Fin N → EReal)
    (x : (⟨2, ![N, K]⟩ : Shape).Idx → EReal) (w : (⟨2, ![C, K]⟩ : Shape).Idx → EReal) (b : (⟨1, ![C]⟩ : Shape).Idx → EReal)
    (p : Fin N) (q : Fin C)
    (hx : ∀ i, ∃ r : ℝ, x i = (r : EReal)) (hw : ∀ i, ∃ r : ℝ, w i = (r : EReal))
    (hd : ∃ r : ℝ, r ≠ 0 ∧ deg p + oneW = (r : EReal)) :
    projectAgg row nb deg x w b p q = aggProject row nb deg x w b p q := by
  obtain ⟨r, hr, hdr⟩ := hd
  choose X hX using hx
  choose W hW using hw
  obtain rfl : x = fun i => (X i : EReal) := funext hX
  obtain rfl : w = fun i => (W i : EReal) := funext hW
  unfold projectAgg aggProject project
  refine congrArg (· + b (ix1 q)) ?_
  rw [hdr]
  -- every division is the product with the reciprocal of the divisor, and every sum starts from the real zero
  simp only [Ideal.div_coe hr, zeroW_eq, zero_add]
  -- both sides are coercions of real expressions
  simp only [← EReal.coe_mul, ← coe_finset_sum, ← EReal.coe_add]
  refine congrArg (fun t : ℝ => (t : EReal)) ?_
  -- in the reals: exchange the two sums and distribute
  rw [Finset.sum_comm, ← Finset.sum_add_distrib, Finset.sum_mul]
  refine Finset.sum_congr rfl fun k _ => ?_
  rw [← Finset.sum_mul]
  ring

/-- A one for every element of a finite set, starting from zero, and one more: a natural number plus one. -/
theorem count_add_one {ι : Type*} (S : Finset ι) :
    ∃ r : ℝ, r ≠ 0 ∧ zeroW + ∑ _j ∈ S, oneW + oneW = (r : EReal) := by
  refine ⟨(S.card : ℝ) + 1, by positivity, ?_⟩
  rw [zeroW_eq, zero_add, oneW_eq, ← coe_finset_sum, Finset.sum_const, nsmul_eq_mul, mul_one, ← EReal.coe_add]

/-- Scattering ones into zeros counts: every entry is a natural number, so adding one gives a nonzero real. -/
theorem scatter_ones_add_one {s si su : Shape} (d : ScatterDims s si su) {wd : Nat} (idx : IVec si wd) (i : s.Idx) :
    ∃ r : ℝ, r ≠ 0 ∧ Ideal.hostScatterAdd d (fun _ => zeroW) idx (fun _ => oneW) i + oneW = (r : EReal) := by
  unfold Ideal.hostScatterAdd
  exact count_add_one _

end Cert.Sage

end
-- ==== Proof.LibReal.lean ====
/-
  Extended reals that are real numbers. On the extended reals the sum and the product are commutative and associative,
  but the product distributes over the sum only away from the infinities. The predicate `IsR a` says `a` is (the image of)
  a real number; it is closed under every operation met here — sums, finite sums, products, differences, the guarded and
  the plain division by a nonzero real, the logistic function and the hyperbolic tangent — and under it the distributive
  law holds.
-/
import Idealize.ShloMosaic.PureOps.Ideal

noncomputable section

namespace Cert.LibReal

open Idealize.ShloMosaic

/-- `a` is a real number. -/
def IsR (a : EReal) : Prop := ∃ r : ℝ, a = (r : EReal)

theorem IsR.coe (r : ℝ) : IsR (r : EReal) := ⟨r, rfl⟩
theorem IsR.zero : IsR 0 := ⟨0, rfl⟩
theorem IsR.one : IsR 1 := ⟨1, rfl⟩

theorem IsR.add {a b : EReal} (ha : IsR a) (hb : IsR b) : IsR (a + b) := by
  obtain ⟨r, rfl⟩ := ha; obtain ⟨s, rfl⟩ := hb; exact ⟨r + s, (EReal.coe_add r s).symm⟩

theorem IsR.mul {a b : EReal} (ha : IsR a) (hb : IsR b) : IsR (a * b) := by
  obtain ⟨r, rfl⟩ := ha; obtain ⟨s, rfl⟩ := hb; exact ⟨r * s, (EReal.coe_mul r s).symm⟩

theorem IsR.sub {a b : EReal} (ha : IsR a) (hb : IsR b) : IsR (a - b) := by
  obtain ⟨r, rfl⟩ := ha; obtain ⟨s, rfl⟩ := hb; exact ⟨r - s, (EReal.coe_sub r s).symm⟩

/-- A finite sum of real numbers is a real number. -/
theorem IsR.sum {ι : Type*} (s : Finset ι) (f : ι → EReal) (h : ∀ i ∈ s, IsR (f i)) : IsR (∑ i ∈ s, f i) := by
  classical
  induction s using Finset.induction_on with
  | empty => rw [Finset.sum_empty]; exact IsR.zero
  | insert a s ha ih =>
    rw [Finset.sum_insert ha]
    exact (h a (Finset.mem_insert_self a s)).add (ih fun i hi => h i (Finset.mem_insert_of_mem hi))

/-- The quotient of a real number by a nonzero real number. -/
theorem IsR.div {a b : EReal} (ha : IsR a) (hb : IsR b) (hb0 : b ≠ 0) : IsR (Ideal.div a b) := by
  obtain ⟨s, rfl⟩ := hb
  have hs : s ≠ 0 := fun e => hb0 (by rw [e]; rfl)
  rw [Ideal.div_coe hs]
  exact ha.mul (IsR.coe _)

theorem IsR.logistic {a : EReal} (ha : IsR a) : IsR (Ideal.logistic a) := by
  obtain ⟨r, rfl⟩ := ha; exact ⟨_, Ideal.logistic_coe r⟩

theorem IsR.tanh {a : EReal} (ha : IsR a) : IsR (Ideal.tanh a) := by
  obtain ⟨r, rfl⟩ := ha; exact ⟨_, Ideal.tanh_coe r⟩

/-- Among real numbers the product distributes over the sum. -/
theorem add_mul_of_isR {a b c : EReal} (ha : IsR a) (hb : IsR b) (hc : IsR c) : (a + b) * c = a * c + b * c := by
  obtain ⟨r, rfl⟩ := ha; obtain ⟨s, rfl⟩ := hb; obtain ⟨t, rfl⟩ := hc
  rw [← EReal.coe_add, ← EReal.coe_mul, ← EReal.coe_mul, ← EReal.coe_mul, ← EReal.coe_add, add_mul]

end Cert.LibReal

end
-- ==== Proof.LibColumn.lean ====
/-
  Layout operations of "keepdims" row statistics, read at an index given by coordinates.

  A row statistic of an `[a, b]` array (a sum, a mean, a variance along the second axis) lives in an `[a]` array,
  is given a unit column axis, `[a, 1]`, and is spread back over the row, `[a, b]`; a per-feature parameter `[b]` is
  given a unit row axis `[1, b]` and spread over the rows. Each of these steps, in a kernel's vector spelling
  (`shapeCast`, `broadcastTo`) and in the host's (`broadcastInDim` with explicit axes), reads at `(p, c)` the
  operand at the evident coordinates. The lemmas are stated over indices built by `ix1` / `ix2` at every extent, so
  they apply to a printed operation by unification.
-/
import Idealize.ShloMosaic.Lib.ValueIdx
import Idealize.ShloMosaic.Lib.ValueLayout
import Idealize.ShloMosaic.Lib.Pipeline.Value

namespace Cert.LibColumn

open Idealize.ShloMosaic Idealize.ShloMosaic.ValueIdx

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` spread over `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's `[a] → [a, 1]` along axis 0 reads, at `(i, u)`, the operand at `i`. -/
theorem broadcastInDim_a_a1_apply {a : ℕ} (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) := by
  refine broadcastInDim_apply ![0] h x (ix2 i u) (ix1 i) fun ax => ?_
  match ax with
  | ⟨0, _⟩ =>
    show i.val = if a = 1 then 0 else i.val
    split
    · have := i.isLt; omega
    · rfl

/-- The host's `[a, 1] → [a, b]` along axes (0, 1) reads, at `(p, c)`, the column's entry of row `p`. -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- The host's `[b] → [1, b]` along axis 1 reads, at `(u, c)`, the operand at `c`. -/
theorem broadcastInDim_b_1b_apply {b : ℕ} (x : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h x (ix2 u c) = x (ix1 c) := by
  refine broadcastInDim_apply ![1] h x (ix2 u c) (ix1 c) fun ax => ?_
  match ax with
  | ⟨0, _⟩ =>
    show c.val = if b = 1 then 0 else c.val
    split
    · have := c.isLt; omega
    · rfl

/-- The host's `[1, b] → [a, b]` along axes (0, 1) reads, at `(p, c)`, the one row at `c`. -/
theorem broadcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-- The host's spread of a rank-0 value over any shape reads, everywhere, that value. -/
theorem broadcastInDim_scalar_apply {t : Shape} (x : (⟨0, ![]⟩ : Shape).Idx → α)
    (h : (⟨0, ![]⟩ : Shape).BroadcastsInDim t ![]) (j : t.Idx) :
    broadcastInDim t ![] h x j = x ix0 :=
  broadcastInDim_apply ![] h x j ix0 fun ax => ax.elim0

end Cert.LibColumn
-- ==== Proof.LibFinite.lean ====
/-
  A printed finiteness precondition read back. `jnp.all(|x| < +∞)` prints as a reduction by `and`, from the constant 1, of
  the comparison of `|x|` with the broadcast pattern of `+∞`; when that reduction is 1, every entry of `x` is a real
  number: an extended real whose absolute value `max a (-a)` is below `⊤` is neither infinity.
-/
import Idealize.ShloMosaic.Lib.ReduceAll
import Idealize.ShloMosaic.Lib.ValueIdx
import Idealize.ShloMosaic.PureOps.Ideal.Laws
import proofs.«180629_j78245714198552_2_alg».proof.Proof.LibReal
import proofs.«180629_j78245714198552_2_alg».proof.Proof.LibColumn

noncomputable section

namespace Cert.LibFinite

open Idealize.ShloMosaic Cert.LibReal

/-- The shape of rank zero has one index. -/
instance : Subsingleton (⟨0, ![]⟩ : Shape).Idx := ⟨fun _ _ => funext fun d => d.elim0⟩

/-- An extended real whose absolute value compares below the pattern of `+∞` is a real number. -/
theorem isR_of_abs_lt_inf (a : EReal)
    (h : Ideal.cmp .olt (max a (-a)) (Ideal.ofBits .f32 0x7F800000#32) = 1#1) : IsR a := by
  have htop : Ideal.ofBits .f32 0x7F800000#32 = ⊤ := by simp [Ideal.ofBits, Ideal.ieee]
  rw [htop] at h
  unfold Ideal.cmp at h
  have hlt : max a (-a) < ⊤ := by
    by_contra hn
    simp [hn] at h
  rw [max_lt_iff] at hlt
  induction a using EReal.rec with
  | bot => simp at hlt
  | coe r => exact ⟨r, rfl⟩
  | top => simp at hlt

/-- `jnp.all(|x| < +∞)` being 1 makes every entry of `x` a real number. -/
theorem isR_of_all_finite {s : Shape} {axes : List (Fin s.rank)} (x : FVec Ideal s .f32)
    (bc : (⟨0, ![]⟩ : Shape).BroadcastsInDim s (![] : Fin 0 → Fin s.rank)) (h : s.ReducesTo axes ⟨0, ![]⟩)
    (hu : 0 < (⟨0, ![]⟩ : Shape).numel) (j : (⟨0, ![]⟩ : Shape).Idx)
    (e : Host.reduce IntOp.andi
        (cmpf .olt (Host.absf x) (broadcastInDim s ![] bc (constant (F := Ideal) ⟨0, ![]⟩ .f32 0x7F800000#32)))
        (constantI ⟨0, ![]⟩ 1 1#1) h hu j = 1#1)
    (i : s.Idx) : IsR (x i) := by
  have hi := Host.reduce_andi_all _ _ h hu j e i
  rw [ValueIdx.cmpf_apply, Cert.LibColumn.broadcastInDim_scalar_apply] at hi
  exact isR_of_abs_lt_inf (x i) hi

end Cert.LibFinite

end
-- ==== Proof.Finite.lean ====
/-
  The finiteness precondition read back: every feature and every weight is a real number.

  The precondition is the conjunction of three reductions by `and`, one per float input, each of the comparison of the
  input's absolute value with `+∞`. When the conjunction is 1 each reduction is 1, and a reduction over all entries that is
  1 makes every entry an extended real strictly between the two infinities, that is, a real number. Only the features and
  the weights are needed here; the bias may be any extended real.
-/
import proofs.«180629_j78245714198552_2_alg».proof.Pre_finite_inputs
import proofs.«180629_j78245714198552_2_alg».proof.Proof.LibFinite

noncomputable section

namespace Cert.Sage.Finite

open Idealize.ShloMosaic Cert.Pre_finite_inputs

/-- Under the finiteness precondition every entry of the features and of the weights is a real number. -/
theorem reals_of_pre [Cert.Pre_finite_inputs.Facts] (x0 : FVec Ideal S100000x128 .f32) (x1 x2 : IVec S800000 32) (x3 : FVec Ideal S64x128 .f32) (x4 : FVec Ideal S64 .f32)
    (h : Cert.Pre_finite_inputs.fn (F := Ideal) x0 x1 x2 x3 x4 = fun _ => 1#1) :
    (∀ i, ∃ r : ℝ, x0 i = (r : EReal)) ∧ (∀ i, ∃ r : ℝ, x3 i = (r : EReal)) := by
  -- the precondition at its one index
  have h0 := congrFun h ValueIdx.ix0
  dsimp only [Cert.Pre_finite_inputs.fn] at h0
  -- a conjunction of words is 1 exactly when both are
  change IntOp.andi (IntOp.andi _ _) _ = 1#1 at h0
  obtain ⟨h01, _⟩ := IntOp.andi_eq_one.1 h0
  obtain ⟨hA, hB⟩ := IntOp.andi_eq_one.1 h01
  exact ⟨fun i => Cert.LibFinite.isR_of_all_finite x0 Facts.bcast_S_S100000x128 Facts.reducesTo_S100000x128_S_d0_1
            Facts.h_S_ ValueIdx.ix0 hA i,
         fun i => Cert.LibFinite.isR_of_all_finite x3 Facts.bcast_S_S64x128 Facts.reducesTo_S64x128_S_d0_1
            Facts.h_S_ ValueIdx.ix0 hB i⟩

end Cert.Sage.Finite

end
-- ==== Proof.LibRowGather.lean ====
/-
  A gather of whole rows read at an index.

  `x[idx]` of a matrix `x : [N, C]` at a column of start indices `idx : [E, 1]` (offset axis 1, collapsed axis 0, start
  index map `[0]`, index vector axis 1, slices `[1, C]`) takes, for result row `e`, the row of `x` whose number is the
  start index `idx[e, 0]` read as a signed integer and clamped into `[0, N − 1]`; the column is kept. The row depends on
  the start indices only, not on the number of columns: two gathers of matrices of different widths at the same start
  indices select the same rows.
-/
import Idealize.ShloMosaic.Lib.ValueIdx

noncomputable section

namespace Cert.LibRowGather

open Idealize.ShloMosaic Idealize.ShloMosaic.ValueIdx

/-- The row that result row `e` takes: the start index read signed, clamped into `[0, N − 1]`. -/
def rowOf {E w : Nat} (N : Nat) (hN : 0 < N) (idx : IVec ⟨2, ![E, 1]⟩ w) (e : Fin E) : Fin N :=
  ⟨min (idx (ix2 e (0 : Fin 1))).toInt.toNat (N - 1), by omega⟩

/-- THE ROW GATHER READ AT `(e, k)`: the operand at row `rowOf idx e`, column `k`. The dimension numbers are given by
    their lists, as a printed record states them. -/
theorem gather_rows_apply {α : Type} {N C E w : Nat} (hN : 0 < N)
    (d : GatherDims ⟨2, ![N, C]⟩ ⟨2, ![E, 1]⟩ ⟨2, ![E, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C])
    (x : (⟨2, ![N, C]⟩ : Shape).Idx → α) (idx : IVec ⟨2, ![E, 1]⟩ w) (e : Fin E) (k : Fin C) :
    Host.gather d x idx (ix2 e k) = x (ix2 (rowOf N hN idx e) k) := by
  obtain ⟨od, cd, ob, sb, sm, iv, ss, wf⟩ := d
  dsimp only at h1 h2 h3 h4 h5 h6 h7
  subst h1 h2 h3 h4 h5 h6 h7
  unfold Host.gather
  refine congrArg x ?_
  funext a
  refine Fin.ext ?_
  match a with
  | ⟨0, _⟩ =>
    show GatherDims.start _ (ix2 e k) idx 0 + GatherDims.batchCoord _ (ix2 e k) 0 + GatherDims.offCoord _ (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsi : GatherDims.siIdx (GatherDims.mk (s := ⟨2, ![N, C]⟩) (si := ⟨2, ![E, 1]⟩) (t := ⟨2, ![E, C]⟩) [1] [0] [] [] [0] 1 ![1, C] wf) (ix2 e k)
        ⟨List.idxOf (0 : Fin 2) [0], List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show GatherDims.start _ (ix2 e k) idx 1 + GatherDims.batchCoord _ (ix2 e k) 1 + GatherDims.offCoord _ (ix2 e k) 1 = k.val
    rw [GatherDims.batchCoord_eq_zero _ _ _ List.not_mem_nil]
    unfold GatherDims.start
    rw [dif_neg (show (1 : Fin 2) ∉ ([0] : List (Fin 2)) by decide)]
    simp only [Nat.add_zero, Nat.zero_add]
    rfl

end Cert.LibRowGather

end
-- ==== Proof.LibScatterRows.lean ====
/-
  A scatter-add of whole rows read at an index.

  Scattering the rows of `upd : [E, C]` into a matrix `x : [N, C]` at a column of start indices `idx : [E, 1]`
  (update window axis 1, inserted window axis 0, scatter-dims-to-operand-dims map `[0]`, index vector axis 1) adds
  update row `e` to the operand row whose number is the start index `idx[e, 0]` read as a signed integer; it is NOT
  clamped: a row whose start index lies outside `[0, N − 1]` is dropped. The column is kept. So the result at row `v`,
  column `f` is the operand's entry plus the sum, over the update rows that arrive at `v`, of their entry in column
  `f`. Which rows arrive depends on the start indices only, not on the number of columns.
-/
import Idealize.ShloMosaic.PureOps.Ideal
import Idealize.ShloMosaic.Lib.ValueIdx

noncomputable section

namespace Cert.LibScatterRows

open Idealize.ShloMosaic Idealize.ShloMosaic.ValueIdx
open scoped BigOperators

/-- Update row `e` arrives at operand row `v`: its start index, read as a signed integer (not clamped), is `v`. -/
def arrives {E wd : Nat} (idx : IVec ⟨2, ![E, 1]⟩ wd) (N : Nat) (e : Fin E) (v : Fin N) : Prop :=
  (idx (ix2 e (0 : Fin 1))).toInt = (v.val : Int)

instance {E wd : Nat} (idx : IVec ⟨2, ![E, 1]⟩ wd) (N : Nat) (e : Fin E) (v : Fin N) : Decidable (arrives idx N e v) := by
  unfold arrives; infer_instance

/-- The update rows that arrive at operand row `v`. It depends on the start indices only, not on the rows' width. -/
def arriving {E wd : Nat} (idx : IVec ⟨2, ![E, 1]⟩ wd) (N : Nat) (v : Fin N) : Finset (Fin E) :=
  Finset.univ.filter (fun e => arrives idx N e v)

/-- Where update index `(e, f')` lands: at operand index `(v, f)` exactly when row `e` arrives at `v` and the
    column is kept. -/
theorem resultIdx?_eq_some_iff {N C E wd : Nat} (d : ScatterDims ⟨2, ![N, C]⟩ ⟨2, ![E, 1]⟩ ⟨2, ![E, C]⟩)
    (h1 : d.updateWindowDims = [1]) (h2 : d.insertedWindowDims = [0]) (h3 : d.scatterDimsToOperandDims = [0])
    (h4 : d.indexVectorDim = 1) (idx : IVec ⟨2, ![E, 1]⟩ wd) (e : Fin E) (f' : Fin C) (v : Fin N) (f : Fin C) :
    d.resultIdx? (ix2 e f') idx = some (ix2 v f) ↔ (arrives idx N e v ∧ f' = f) := by
  obtain ⟨uw, iw, sd, iv, wf⟩ := d
  dsimp only at h1 h2 h3 h4
  subst h1 h2 h3 h4
  -- the window's start on the row axis is the start index read signed; on the column axis it is 0
  have hs0 : ScatterDims.start (ScatterDims.mk (s := ⟨2, ![N, C]⟩) (si := ⟨2, ![E, 1]⟩) (u := ⟨2, ![E, C]⟩) [1] [0] [0] 1 wf)
      (ix2 e f') idx 0 = (idx (ix2 e (0 : Fin 1))).toInt := by
    unfold ScatterDims.start
    rw [dif_pos (List.mem_singleton.mpr rfl)]
    have hsi : ScatterDims.siIdx (ScatterDims.mk (s := ⟨2, ![N, C]⟩) (si := ⟨2, ![E, 1]⟩) (u := ⟨2, ![E, C]⟩) [1] [0] [0] 1 wf) (ix2 e f')
        ⟨List.idxOf (0 : Fin 2) [0], List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hs1 : ScatterDims.start (ScatterDims.mk (s := ⟨2, ![N, C]⟩) (si := ⟨2, ![E, 1]⟩) (u := ⟨2, ![E, C]⟩) [1] [0] [0] 1 wf)
      (ix2 e f') idx 1 = 0 := by
    unfold ScatterDims.start
    rw [dif_neg (show (1 : Fin 2) ∉ ([0] : List (Fin 2)) by decide)]
  -- the window coordinate on the (inserted) row axis is 0; on the column axis it is the update's column
  have hw0 : ScatterDims.window (ScatterDims.mk (s := ⟨2, ![N, C]⟩) (si := ⟨2, ![E, 1]⟩) (u := ⟨2, ![E, C]⟩) [1] [0] [0] 1 wf)
      (ix2 e f') 0 = 0 := by
    unfold ScatterDims.window
    rw [dif_neg (by simp [ScatterDims.sKept, Shape.kept])]
  have hw1 : ScatterDims.window (ScatterDims.mk (s := ⟨2, ![N, C]⟩) (si := ⟨2, ![E, 1]⟩) (u := ⟨2, ![E, C]⟩) [1] [0] [0] 1 wf)
      (ix2 e f') 1 = f'.val := by
    unfold ScatterDims.window
    rw [dif_pos (by simp [ScatterDims.sKept, Shape.kept])]
    rfl
  generalize (ScatterDims.mk (s := ⟨2, ![N, C]⟩) (si := ⟨2, ![E, 1]⟩) (u := ⟨2, ![E, C]⟩) [1] [0] [0] 1 wf) = D at hs0 hs1 hw0 hw1 ⊢
  unfold ScatterDims.resultIdx? arrives
  have hv := v.isLt
  have hf := f.isLt
  have hf' := f'.isLt
  constructor
  · intro h
    split at h
    · rename_i hall
      have h' := Option.some.inj h
      have e0 : (D.start (ix2 e f') idx 0 + (D.window (ix2 e f') 0 : Int)).toNat = v.val :=
        congrArg (fun i => (i 0).val) h'
      have e1 : (D.start (ix2 e f') idx 1 + (D.window (ix2 e f') 1 : Int)).toNat = f.val :=
        congrArg (fun i => (i 1).val) h'
      have b0 := (hall 0).1
      rw [hs0, hw0] at e0 b0
      rw [hs1, hw1] at e1
      exact ⟨by omega, Fin.ext (by omega)⟩
    · exact absurd h (by simp)
  · rintro ⟨ha, rfl⟩
    have hall : ∀ a, 0 ≤ D.start (ix2 e f') idx a + (D.window (ix2 e f') a : Int)
        ∧ D.start (ix2 e f') idx a + (D.window (ix2 e f') a : Int) < ((⟨2, ![N, C]⟩ : Shape).size a : Int) := by
      refine Fin.forall_fin_two.2 ⟨?_, ?_⟩
      · rw [hs0, hw0]
        show _ ∧ _ < (N : Int)
        omega
      · rw [hs1, hw1]
        show _ ∧ _ < (C : Int)
        omega
    rw [dif_pos hall]
    refine congrArg some (funext ?_)
    refine Fin.forall_fin_two.2 ⟨Fin.ext ?_, Fin.ext ?_⟩
    · show (D.start (ix2 e f') idx 0 + (D.window (ix2 e f') 0 : Int)).toNat = v.val
      rw [hs0, hw0]; omega
    · show (D.start (ix2 e f') idx 1 + (D.window (ix2 e f') 1 : Int)).toNat = f'.val
      rw [hs1, hw1]; omega

/-- THE ROW SCATTER-ADD READ AT `(v, f)`: the operand's entry plus the sum over the arriving update rows of their entry
    in column `f`. The dimension numbers are given by their lists, as a printed record states them. -/
theorem scatterAdd_rows_apply {N C E wd : Nat} (d : ScatterDims ⟨2, ![N, C]⟩ ⟨2, ![E, 1]⟩ ⟨2, ![E, C]⟩)
    (h1 : d.updateWindowDims = [1]) (h2 : d.insertedWindowDims = [0]) (h3 : d.scatterDimsToOperandDims = [0]) (h4 : d.indexVectorDim = 1)
    (x : (⟨2, ![N, C]⟩ : Shape).Idx → EReal) (idx : IVec ⟨2, ![E, 1]⟩ wd) (upd : (⟨2, ![E, C]⟩ : Shape).Idx → EReal) (v : Fin N) (f : Fin C) :
    Ideal.hostScatterAdd d x idx upd (ix2 v f) = x (ix2 v f) + ∑ e ∈ arriving idx N v, upd (ix2 e f) := by
  unfold Ideal.hostScatterAdd
  refine congrArg (x (ix2 v f) + ·) ?_
  rw [Finset.sum_filter, sum_idx2]
  unfold arriving
  rw [Finset.sum_filter]
  refine Finset.sum_congr rfl (fun e _ => ?_)
  simp only [resultIdx?_eq_some_iff d h1 h2 h3 h4]
  by_cases ha : arrives idx N e v
  · simp only [ha, true_and, if_true]
    rw [Finset.sum_ite_eq' Finset.univ f (fun b => upd (ix2 e b))]
    simp
  · simp [ha]

end Cert.LibScatterRows

end
-- ==== Proof.RefValue.lean ====
import proofs.«180629_j78245714198552_2_alg».proof.Proof.Gen.ReferenceIdeal.Read
import proofs.«180629_j78245714198552_2_alg».proof.Proof.Spec
import proofs.«180629_j78245714198552_2_alg».proof.Proof.LibRowGather
import proofs.«180629_j78245714198552_2_alg».proof.Proof.LibScatterRows

/-
  The reference program's result, read at one node and one class.

  The reference gathers, for every edge, the feature row of the edge's source node (the source index normalized and
  clamped into range), scatter-adds those rows at the edges' destination indices into a zero matrix, adds the node's own
  features, divides every row by the node's in-degree plus one (the in-degree itself a scatter of ones), multiplies by
  the layer's weights and adds the bias. Read at node `p`, class `q` that is the aggregate-then-project arrangement of
  the specification.
-/

noncomputable section

namespace Cert.ReferenceIdeal.RefValue

open Cert.ReferenceIdeal Cert.ReferenceIdeal.Gen Idealize.ShloMosaic Idealize.ShloMosaic.ValueIdx
open scoped BigOperators

/-- The reference's aggregate is the exact scatter-add of the gathered rows, at the destination indices, into the zero
    matrix. -/
theorem aggregate_def (x0 : (⟨S100000x128, .f32⟩ : BufTy).Contents (Elt Ideal)) (x1 x2 : (⟨S800000, .i32⟩ : BufTy).Contents (Elt Ideal)) :
    Read.val_main_v9 (F := Ideal) x0 x1 x2
      = Ideal.hostScatterAdd scatter_S100000x128_S800000x1_S800000x128_1_0_0_1 (Read.val_main_v7 (F := Ideal))
          (Read.val_main_v8 (F := Ideal) x2) (Read.val_main_v6 (F := Ideal) x0 x1) := rfl

/-- The scatter-add of the gathered rows, read at node `p`, feature `k`: the zero word plus the sum, over the edges
    arriving at `p`, of the feature `k` of the edge's source node. -/
theorem aggregate_apply (x0 : (⟨S100000x128, .f32⟩ : BufTy).Contents (Elt Ideal)) (x1 x2 : (⟨S800000, .i32⟩ : BufTy).Contents (Elt Ideal))
    (p : Fin 100000) (k : Fin 128) :
    Read.val_main_v9 (F := Ideal) x0 x1 x2 (ix2 p k)
      = Ideal.ofBits .f32 0x00000000#32
        + ∑ e ∈ Cert.LibScatterRows.arriving (Read.val_main_v8 (F := Ideal) x2) 100000 p,
            x0 (ix2 (Cert.LibRowGather.rowOf 100000 (by decide) (Read.val_main_v5 (F := Ideal) x1) e) k) := by
  rw [aggregate_def, Cert.LibScatterRows.scatterAdd_rows_apply scatter_S100000x128_S800000x1_S800000x128_1_0_0_1 rfl rfl rfl rfl,
    Read.val_main_v7_apply, Read.val_main_cst_apply, Ideal.ofBits_def]
  refine congrArg (Ideal.ofBits .f32 0x00000000#32 + ·) ?_
  refine Finset.sum_congr rfl fun e _ => ?_
  exact Cert.LibRowGather.gather_rows_apply (by decide) gather_S100000x128_S800000x1_S800000x128_1_0_n_n_0_1_1128
    rfl rfl rfl rfl rfl rfl rfl x0 (Read.val_main_v5 (F := Ideal) x1) e k

/-- The reference's result at node p, class q is the aggregate-then-project arrangement, with the gathered row of edge e the
    normalized source index clamped into range, the arriving edges those whose destination index is p, and the degree the
    scatter of ones. -/
theorem reference_apply (x0 : (⟨S100000x128, .f32⟩ : BufTy).Contents (Elt Ideal)) (x1 x2 : (⟨S800000, .i32⟩ : BufTy).Contents (Elt Ideal))
    (x3 : (⟨S64x128, .f32⟩ : BufTy).Contents (Elt Ideal)) (x4 : (⟨S64, .f32⟩ : BufTy).Contents (Elt Ideal)) (p : Fin 100000) (q : Fin 64) :
    Read.val_main_v23 (F := Ideal) x0 x1 x2 x3 x4 (ix2 p q)
      = Cert.Sage.aggProject (N := 100000) (E := 800000) (K := 128) (C := 64)
          (Cert.LibRowGather.rowOf 100000 (by decide) (Read.val_main_v5 (F := Ideal) x1))
          (Cert.LibScatterRows.arriving (Read.val_main_v8 (F := Ideal) x2) 100000)
          (fun v => Read.val_main_v13 (F := Ideal) x2 (ix1 v)) x0 x3 x4 p q := by
  unfold Cert.Sage.aggProject
  rw [Read.val_main_v23_apply, Read.val_main_v20_apply, Read.val_main_v22_apply, Read.val_main_v21_apply, Ideal.addf_def]
  have h21 : Read.idx_main_v21 (Read.idx_main_v22 (ix2 p q)) = ix1 q :=
    funext fun a => Fin.ext (by match a with | ⟨0, _⟩ => rfl)
  rw [h21]
  refine congrArg (· + x4 (ix1 q)) ?_
  refine Finset.sum_congr rfl fun k _ => ?_
  have hl : Read.lidx_main_v20 (ix2 p q) k = ix2 p k :=
    funext fun a => Fin.ext (by match a with | ⟨0, _⟩ => rfl | ⟨1, _⟩ => rfl)
  have hr : Read.ridx_main_v20 (ix2 p q) k = ix2 q k :=
    funext fun a => Fin.ext (by match a with | ⟨0, _⟩ => rfl | ⟨1, _⟩ => rfl)
  rw [hl, hr]
  refine congrArg (· * x3 (ix2 q k)) ?_
  rw [Read.val_main_v19_apply, Read.val_main_v14_apply, Read.val_main_v18_apply, Read.val_main_v17_apply,
    Read.val_main_v16_apply, Read.val_main_v15_apply, Read.val_main_cst_3_apply]
  have h17 : Read.idx_main_v17 (Read.idx_main_v18 (ix2 p k)) = ix1 p :=
    funext fun a => Fin.ext (by match a with | ⟨0, _⟩ => rfl)
  rw [h17, aggregate_apply]
  simp only [Ideal.addf_def, Ideal.hostDivf_def, Ideal.ofBits_def]

end Cert.ReferenceIdeal.RefValue

end
-- ==== Proof.LibDot.lean ====
/-
  A rows-by-columns product read at an index.

  For dimension numbers that contract the left operand's second axis with the right operand's first (the plain
  `M × K` by `K × N` product), the sum over the contraction index that both the kernel's matrix unit and the
  host's `dot_general` denote on the extended reals is the familiar `Σ_k l (a, k) · r (k, b)`.
-/
import Idealize.ShloMosaic.PureOps.Ideal.Laws
import Idealize.ShloMosaic.Lib.ValueIdx

noncomputable section

open scoped BigOperators

namespace Idealize.ShloMosaic.PlainDot

open Idealize.ShloMosaic Idealize.ShloMosaic.ValueIdx

variable {M K N : ℕ}

/-- The contraction sum of a plain product at output index `(a, b)` is the sum over `k : Fin K` of
    `l (a, k) · r (k, b)`. The dimension numbers are given by their six lists, as a printed record states them. -/
theorem sum_eq (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (l : (⟨2, ![M, K]⟩ : Shape).Idx → EReal) (r : (⟨2, ![K, N]⟩ : Shape).Idx → EReal) (a : Fin M) (b : Fin N) :
    ∑ k : D.contr.Idx, l (D.lhsIdx (ix2 a b) k) * r (D.rhsIdx (ix2 a b) k) = ∑ k : Fin K, l (ix2 a k) * r (ix2 k b) := by
  obtain ⟨lc, rc, ln, rn, lb, rb, wf⟩ := D
  dsimp only at h1 h2 h3 h4 h5 h6
  subst h1 h2 h3 h4 h5 h6
  have hr : (DotDims.mk (sl := ⟨2, ![M, K]⟩) (sr := ⟨2, ![K, N]⟩) (so := ⟨2, ![M, N]⟩) [1] [0] [0] [1] [] [] wf).contr.rank = 1 := rfl
  have hs : (DotDims.mk (sl := ⟨2, ![M, K]⟩) (sr := ⟨2, ![K, N]⟩) (so := ⟨2, ![M, N]⟩) [1] [0] [0] [1] [] [] wf).contr.size ⟨0, by omega⟩ = K := rfl
  rw [← Equiv.sum_comp (contrEquiv1 _ K hr hs).symm]
  refine Finset.sum_congr rfl fun k _ => ?_
  have el : (DotDims.mk (sl := ⟨2, ![M, K]⟩) (sr := ⟨2, ![K, N]⟩) (so := ⟨2, ![M, N]⟩) [1] [0] [0] [1] [] [] wf).lhsIdx (ix2 a b) ((contrEquiv1 _ K hr hs).symm k) = ix2 a k := by
    funext d
    match d with
    | ⟨0, _⟩ => rfl
    | ⟨1, _⟩ =>
      refine Fin.ext ?_
      exact (DotDims.lhsIdx_val_of_single _ (cl := 1) rfl (ix2 a b) _).trans (contrEquiv1_symm_val _ K hr hs k)
  have er : (DotDims.mk (sl := ⟨2, ![M, K]⟩) (sr := ⟨2, ![K, N]⟩) (so := ⟨2, ![M, N]⟩) [1] [0] [0] [1] [] [] wf).rhsIdx (ix2 a b) ((contrEquiv1 _ K hr hs).symm k) = ix2 k b := by
    funext d
    match d with
    | ⟨0, _⟩ =>
      refine Fin.ext ?_
      exact (DotDims.rhsIdx_val_of_single _ (cr := 0) rfl (ix2 a b) _).trans (contrEquiv1_symm_val _ K hr hs k)
    | ⟨1, _⟩ => rfl
  rw [el, er]

end Idealize.ShloMosaic.PlainDot

end
-- ==== Proof.Project.lean ====
/-
  The first region: the projection `y = x · wᵀ`, row block by row block.

  The grid has 20 points; point `t` stages rows `5000 t … 5000 t + 4999` of the features `x : [100000, 128]`, the whole
  weight matrix `w : [64, 128]`, and writes back the same rows of `y : [100000, 64]`. On the extended reals the body's
  product of a row block with the transposed weights, into a zero accumulator, is entry by entry the sum
  `Σ_k x (r, k) · w (q, k)`, which depends on row `r` of `x` only: so each block written back is the block of ONE function
  of the whole arrays, the blocks tile the result, and the result array ends holding that function.
  Everything is stated at an arbitrary contents `V` of the core's buffers at the region's entry.
-/
import proofs.«180629_j78245714198552_2_alg».proof.Proof.Gen.KernelIdeal.Frame
import proofs.«180629_j78245714198552_2_alg».proof.Proof.Spec
import proofs.«180629_j78245714198552_2_alg».proof.Proof.LibDot
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem Idealize.ShloMosaic.ValueIdx
open Idealize.ShloMosaic.Pipeline (Dat)
open scoped BigOperators

namespace Cert.KernelIdeal.Project

open Cert.KernelIdeal Cert.KernelIdeal.Gen

theorem hz : (![0, 0] : Fin 2 → Nat) = fun _ => 0 := funext fun a => by fin_cases a <;> rfl

/-- The projected features as one function of the whole arrays: entry `(p, q)` is `Σ_k x (p, k) · w (q, k)`. -/
def projected (x : S100000x128.Idx → EReal) (w : S64x128.Idx → EReal) : S100000x64.Idx → EReal :=
  fun i => Cert.Sage.project (N := 100000) (K := 128) (C := 64) x w ⟨(i 0).val, (i 0).isLt⟩ ⟨(i 1).val, (i 1).isLt⟩

theorem projected_apply (x : S100000x128.Idx → EReal) (w : S64x128.Idx → EReal) (p : Fin 100000) (q : Fin 64) :
    projected x w (ix2 p q) = Cert.Sage.project (N := 100000) (K := 128) (C := 64) x w p q := rfl

/-- The body's product at `(r, q)`: the row block times the transposed weights into zeros is the sum over the 128
    features of `x₀ (r, k) · x₁ (q, k)` (a change of float format is the identity on the extended reals). -/
theorem pay_apply (x0 : Vec Ideal S5000x128 .f32) (x1 : Vec Ideal S64x128 .f32) (r : Fin 5000) (q : Fin 64) :
    k0_pay1 (F := Ideal) x0 x1 (ix2 r q) = ∑ k : Fin 128, x0 (ix2 r k) * x1 (ix2 q k) := by
  unfold k0_pay1
  dsimp only
  simp only [matmul]
  rw [Ideal.matmul_constant_zero_apply]
  refine (PlainDot.sum_eq dot_S5000x128_S128x64_S5000x64_1_0_0_1_n_n rfl rfl rfl rfl rfl rfl _ _ r q).trans ?_
  refine Finset.sum_congr rfl fun k _ => ?_
  rw [transpose_ix2_apply]
  rfl

/-- The same at an index given by its coordinates. -/
theorem pay_at (x0 : Vec Ideal S5000x128 .f32) (x1 : Vec Ideal S64x128 .f32) (j : S5000x64.Idx) (r : Fin 5000) (q : Fin 64)
    (hr : (j 0).val = r.val) (hq : (j 1).val = q.val) :
    k0_pay1 (F := Ideal) x0 x1 j = ∑ k : Fin 128, x0 (ix2 r k) * x1 (ix2 q k) := by
  have hj : j = ix2 r q := funext fun a => by
    match a with
    | ⟨0, _⟩ => exact Fin.ext hr
    | ⟨1, _⟩ => exact Fin.ext hq
  subst hj
  exact pay_apply x0 x1 r q

/-- The projected features at an index given by its coordinates. -/
theorem projected_at (x : S100000x128.Idx → EReal) (w : S64x128.Idx → EReal) (i : S100000x64.Idx) (p : Fin 100000) (q : Fin 64)
    (hp : (i 0).val = p.val) (hq : (i 1).val = q.val) :
    projected x w i = Cert.Sage.project (N := 100000) (K := 128) (C := 64) x w p q := by
  have hi : i = ix2 p q := funext fun a => by
    match a with
    | ⟨0, _⟩ => exact Fin.ext hp
    | ⟨1, _⟩ => exact Fin.ext hq
  subst hi
  rfl

variable (V : (c : Dev nD) → (b : Ref sig .tc) → Buf (Elt Ideal) ((c : Thread nD τ).loc b))

/-- The printed index maps, decided over the grid: point `t` stages block row `t` of the features and the one block
    of the weights, and writes block row `t` of the result. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Every block row of the result is some point's. -/
theorem idx_onto : ∀ q0 : Fin 20, ∃ t : Fin cfg0.N, win0_2.index t = ![q0.val, 0] :=
  (by decide +kernel : ∀ q0 : Fin 20, ∃ t : Fin grid0.N, win0_2.index t = ![q0.val, 0])

/-- The features' block at point `t` is rows `5000 t … 5000 t + 4999` of the features as the region finds them. -/
theorem xblk_apply (c : Dev nD) (t : Fin cfg0.N) (r : Fin 5000) (k : Fin 128) (p : Fin 100000)
    (hp : p.val = t.val * 5000 + r.val) :
    (iblk0 V c 0 t : Vec Ideal S5000x128 .f32) (ix2 r k) = (V c main_arg0 : S100000x128.Idx → EReal) (ix2 p k) := by
  obtain ⟨e0, e1, -, -, -, -⟩ := idx_facts t
  unfold iblk0
  rw [View.read_apply]
  show V c main_arg0 _ = V c main_arg0 _
  refine congrArg (V c main_arg0) (funext fun a => Fin.ext ?_)
  match a with
  | ⟨0, _⟩ => show win0_0.index t (0 : Fin 2) * 5000 + 1 * r.val = p.val; rw [e0, hp]; omega
  | ⟨1, _⟩ => show win0_0.index t (1 : Fin 2) * 128 + 1 * k.val = k.val; rw [e1]; omega

/-- The weights' block at every point is the whole weight matrix. -/
theorem wblk_apply (c : Dev nD) (t : Fin cfg0.N) (q : Fin 64) (k : Fin 128) :
    (iblk0 V c 1 t : Vec Ideal S64x128 .f32) (ix2 q k) = (V c main_arg3 : S64x128.Idx → EReal) (ix2 q k) := by
  obtain ⟨-, -, e2, e3, -, -⟩ := idx_facts t
  unfold iblk0
  rw [View.read_apply]
  show V c main_arg3 _ = V c main_arg3 _
  refine congrArg (V c main_arg3) (funext fun a => Fin.ext ?_)
  match a with
  | ⟨0, _⟩ => show win0_1.index t (0 : Fin 2) * 64 + 1 * q.val = q.val; rw [e2]; omega
  | ⟨1, _⟩ => show win0_1.index t (1 : Fin 2) * 128 + 1 * k.val = k.val; rw [e3]; omega

/-- WHAT POINT `t` WRITES BACK is block `t` of the projected features of the arrays as the region finds them. -/
theorem flushed_eq (c : Dev nD) (t : Fin cfg0.N) :
    (dat0 V c).flushed 2 t
      = ((cfg0.win 2).blk t).view.read (Elt Ideal) (projected (V c main_arg0) (V c main_arg3)) := by
  show (cfg0.win 2).cut (grid0.coords t) ((dat0 V c).after 2 t) = _
  rw [after0_2]
  unfold out0_2
  rw [View.canon_unit_zero hz]
  simp only [View.ld_unit_zero (S := S5000x128) hz, View.ld_unit_zero (S := S64x128) hz]
  obtain ⟨-, -, -, -, e4, e5⟩ := idx_facts t
  have ht : t.val < 20 := lt_of_lt_of_eq t.isLt N_0
  funext j
  have hj0 : (j 0).val < 5000 := (j 0).isLt
  have hj1 : (j 1).val < 64 := (j 1).isLt
  show k0_pay1 (F := Ideal) (iblk0 V c 0 t) (iblk0 V c 1 t) j
    = projected (V c main_arg0) (V c main_arg3) (((cfg0.win 2).blk t).view.emb j)
  refine (pay_at _ _ j ⟨(j 0).val, hj0⟩ ⟨(j 1).val, hj1⟩ rfl rfl).trans ?_
  rw [projected_at _ _ _ ⟨t.val * 5000 + (j 0).val, by omega⟩ ⟨(j 1).val, hj1⟩
    (by show win0_2.index t (0 : Fin 2) * 5000 + 1 * (j 0).val = t.val * 5000 + (j 0).val; rw [e4]; omega)
    (by show win0_2.index t (1 : Fin 2) * 64 + 1 * (j 1).val = (j 1).val; rw [e5]; omega)]
  unfold Cert.Sage.project
  refine Finset.sum_congr rfl fun k _ => ?_
  rw [xblk_apply V c t ⟨(j 0).val, hj0⟩ k ⟨t.val * 5000 + (j 0).val, by omega⟩ rfl, wblk_apply V c t ⟨(j 1).val, hj1⟩ k]

/-- An index of the result is in point `t`'s block iff each coordinate is in the block's range on its axis. -/
theorem mem_blk (t : Fin cfg0.N) (i : S100000x64.Idx) :
    i ∈ ((cfg0.win 2).blk t).view.set ↔ ∀ a : Fin 2, win0_2.index t a * S5000x64.size a ≤ (i a).val
      ∧ (i a).val < win0_2.index t a * S5000x64.size a + S5000x64.size a := by
  show i ∈ ((View.whole main_v0).slice (win0_2.rect t)).set ↔ _
  rw [View.set_slice_whole, Rect.mem_set_unit]
  exact Iff.rfl

/-- The 20 blocks of 5000 rows tile the result: row `p` is in the block of point `p / 5000`. -/
theorem covered (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ := idx_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk]
  intro a
  match a with
  | ⟨0, _⟩ =>
    show win0_2.index t (0 : Fin 2) * 5000 ≤ (i 0).val ∧ (i 0).val < win0_2.index t (0 : Fin 2) * 5000 + 5000
    omega
  | ⟨1, _⟩ =>
    show win0_2.index t (1 : Fin 2) * 64 ≤ (i 1).val ∧ (i 1).val < win0_2.index t (1 : Fin 2) * 64 + 64
    omega

/-- THE RESULT ARRAY of the first region: the projected features of the arrays as the region finds them. -/
theorem final (c : Dev nD) :
    (dat0 V c).arrAt 2 cfg0.N = projected (V c main_arg0) (V c main_arg3) :=
  (dat0 V c).arrAt_eq_of_cover 2 _ (fun t _ => flushed_eq V c t) covered

end Cert.KernelIdeal.Project

end
-- ==== Proof.Combine.lean ====
/-
  The second region: normalize the aggregated projected features and add the bias, row block by row block.

  The grid has 20 points; point `t` stages rows `5000 t … 5000 t + 4999` of the projected features `y : [100000, 64]`,
  of the neighbours' sums `s : [100000, 64]` and of the in-degree column `d : [100000, 1]`, the one bias row
  `b : [1, 64]`, and writes back the same rows of the result. The body is pointwise apart from two broadcasts — the
  degree column along the 64 classes, the bias row down the 5000 rows — so entry `(r, q)` of what it stores is
  `(s (r, q) + y (r, q)) / (d (r, 0) + 1) + b (0, q)`, each block written back is the block of ONE function of the whole
  arrays, the blocks tile the result, and the result array ends holding that function.
  Everything is stated at an arbitrary contents `V` of the core's buffers at the region's entry.
-/
import proofs.«180629_j78245714198552_2_alg».proof.Proof.Gen.KernelIdeal.Frame
import proofs.«180629_j78245714198552_2_alg».proof.Proof.Spec
import proofs.«180629_j78245714198552_2_alg».proof.Proof.LibColumn
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem Idealize.ShloMosaic.ValueIdx
open Idealize.ShloMosaic.Pipeline (Dat)
open scoped BigOperators

namespace Cert.KernelIdeal.Combine

open Cert.KernelIdeal Cert.KernelIdeal.Gen

theorem hz : (![0, 0] : Fin 2 → Nat) = fun _ => 0 := funext fun a => by fin_cases a <;> rfl

/-- The normalized, biased result at node `p`, class `q`, from the four whole arrays. -/
def combinedAt (y s : S100000x64.Idx → EReal) (d : S100000x1.Idx → EReal) (b : S1x64.Idx → EReal)
    (p : Fin 100000) (q : Fin 64) : EReal :=
  Ideal.div (s (ix2 p q) + y (ix2 p q)) (d (ix2 p (0 : Fin 1)) + Cert.Sage.oneW) + b (ix2 (0 : Fin 1) q)

/-- The same as one function of the array index. -/
def combined (y s : S100000x64.Idx → EReal) (d : S100000x1.Idx → EReal) (b : S1x64.Idx → EReal) :
    S100000x64.Idx → EReal :=
  fun i => combinedAt y s d b ⟨(i 0).val, (i 0).isLt⟩ ⟨(i 1).val, (i 1).isLt⟩

theorem combined_apply (y s : S100000x64.Idx → EReal) (d : S100000x1.Idx → EReal) (b : S1x64.Idx → EReal)
    (p : Fin 100000) (q : Fin 64) : combined y s d b (ix2 p q) = combinedAt y s d b p q := rfl

theorem combined_at (y s : S100000x64.Idx → EReal) (d : S100000x1.Idx → EReal) (b : S1x64.Idx → EReal)
    (i : S100000x64.Idx) (p : Fin 100000) (q : Fin 64) (hp : (i 0).val = p.val) (hq : (i 1).val = q.val) :
    combined y s d b i = combinedAt y s d b p q := by
  have hi : i = ix2 p q := funext fun a => by
    match a with
    | ⟨0, _⟩ => exact Fin.ext hp
    | ⟨1, _⟩ => exact Fin.ext hq
  subst hi
  rfl

/-- The body's stored value at `(r, q)`: the sum of the two feature blocks over the degree column plus one, plus the
    bias row's entry. -/
theorem pay_apply (x0 x1 : Vec Ideal S5000x64 .f32) (x2 : Vec Ideal S5000x1 .f32) (x3 : Vec Ideal S1x64 .f32)
    (r : Fin 5000) (q : Fin 64) :
    k1_pay1 (F := Ideal) x0 x1 x2 x3 (ix2 r q)
      = Ideal.div (x1 (ix2 r q) + x0 (ix2 r q)) (x2 (ix2 r (0 : Fin 1)) + Cert.Sage.oneW) + x3 (ix2 (0 : Fin 1) q) := by
  unfold k1_pay1
  simp only [shapeCast_self]
  rw [addf_apply, divf_apply, addf_apply, Cert.LibColumn.broadcastTo_a1_ab_apply, broadcastTo_1b_ab_apply, addf_apply]
  rfl

/-- The same at an index given by its coordinates. -/
theorem pay_at (x0 x1 : Vec Ideal S5000x64 .f32) (x2 : Vec Ideal S5000x1 .f32) (x3 : Vec Ideal S1x64 .f32)
    (j : S5000x64.Idx) (r : Fin 5000) (q : Fin 64) (hr : (j 0).val = r.val) (hq : (j 1).val = q.val) :
    k1_pay1 (F := Ideal) x0 x1 x2 x3 j
      = Ideal.div (x1 (ix2 r q) + x0 (ix2 r q)) (x2 (ix2 r (0 : Fin 1)) + Cert.Sage.oneW) + x3 (ix2 (0 : Fin 1) q) := by
  have hj : j = ix2 r q := funext fun a => by
    match a with
    | ⟨0, _⟩ => exact Fin.ext hr
    | ⟨1, _⟩ => exact Fin.ext hq
  subst hj
  exact pay_apply x0 x1 x2 x3 r q

variable (V : (c : Dev nD) → (b : Ref sig .tc) → Buf (Elt Ideal) ((c : Thread nD τ).loc b))

/-- The printed index maps, decided over the grid: point `t` stages block row `t` of the three tall arrays and the
    one block of the bias row, and writes block row `t` of the result. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Every block row of the result is some point's. -/
theorem idx_onto : ∀ q0 : Fin 20, ∃ t : Fin cfg1.N, win1_4.index t = ![q0.val, 0] :=
  (by decide +kernel : ∀ q0 : Fin 20, ∃ t : Fin grid1.N, win1_4.index t = ![q0.val, 0])

/-- The projected features' block at point `t` is rows `5000 t … 5000 t + 4999` of that array. -/
theorem yblk_apply (c : Dev nD) (t : Fin cfg1.N) (r : Fin 5000) (q : Fin 64) (p : Fin 100000)
    (hp : p.val = t.val * 5000 + r.val) :
    (iblk1 V c 0 t : Vec Ideal S5000x64 .f32) (ix2 r q) = (V c main_v0 : S100000x64.Idx → EReal) (ix2 p q) := by
  obtain ⟨e0, e1, -⟩ := idx_facts t
  unfold iblk1
  rw [View.read_apply]
  show V c main_v0 _ = V c main_v0 _
  refine congrArg (V c main_v0) (funext fun a => Fin.ext ?_)
  match a with
  | ⟨0, _⟩ => show win1_0.index t (0 : Fin 2) * 5000 + 1 * r.val = p.val; rw [e0, hp]; omega
  | ⟨1, _⟩ => show win1_0.index t (1 : Fin 2) * 64 + 1 * q.val = q.val; rw [e1]; omega

/-- The neighbours' sums' block at point `t` is the same rows of that array. -/
theorem sblk_apply (c : Dev nD) (t : Fin cfg1.N) (r : Fin 5000) (q : Fin 64) (p : Fin 100000)
    (hp : p.val = t.val * 5000 + r.val) :
    (iblk1 V c 1 t : Vec Ideal S5000x64 .f32) (ix2 r q) = (V c main_v10 : S100000x64.Idx → EReal) (ix2 p q) := by
  obtain ⟨-, -, e0, e1, -⟩ := idx_facts t
  unfold iblk1
  rw [View.read_apply]
  show V c main_v10 _ = V c main_v10 _
  refine congrArg (V c main_v10) (funext fun a => Fin.ext ?_)
  match a with
  | ⟨0, _⟩ => show win1_1.index t (0 : Fin 2) * 5000 + 1 * r.val = p.val; rw [e0, hp]; omega
  | ⟨1, _⟩ => show win1_1.index t (1 : Fin 2) * 64 + 1 * q.val = q.val; rw [e1]; omega

/-- The degree column's block at point `t` is the same rows of the column. -/
theorem dblk_apply (c : Dev nD) (t : Fin cfg1.N) (r : Fin 5000) (p : Fin 100000)
    (hp : p.val = t.val * 5000 + r.val) :
    (iblk1 V c 2 t : Vec Ideal S5000x1 .f32) (ix2 r (0 : Fin 1)) = (V c main_v15 : S100000x1.Idx → EReal) (ix2 p (0 : Fin 1)) := by
  obtain ⟨-, -, -, -, e0, e1, -⟩ := idx_facts t
  unfold iblk1
  rw [View.read_apply]
  show V c main_v15 _ = V c main_v15 _
  refine congrArg (V c main_v15) (funext fun a => Fin.ext ?_)
  match a with
  | ⟨0, _⟩ => show win1_2.index t (0 : Fin 2) * 5000 + 1 * r.val = p.val; rw [e0, hp]; omega
  | ⟨1, _⟩ => show win1_2.index t (1 : Fin 2) * 1 + 1 * 0 = 0; rw [e1]

/-- The bias row's block at every point is the whole row. -/
theorem bblk_apply (c : Dev nD) (t : Fin cfg1.N) (q : Fin 64) :
    (iblk1 V c 3 t : Vec Ideal S1x64 .f32) (ix2 (0 : Fin 1) q) = (V c main_v16 : S1x64.Idx → EReal) (ix2 (0 : Fin 1) q) := by
  obtain ⟨-, -, -, -, -, -, e0, e1, -⟩ := idx_facts t
  unfold iblk1
  rw [View.read_apply]
  show V c main_v16 _ = V c main_v16 _
  refine congrArg (V c main_v16) (funext fun a => Fin.ext ?_)
  match a with
  | ⟨0, _⟩ => show win1_3.index t (0 : Fin 2) * 1 + 1 * 0 = 0; rw [e0]
  | ⟨1, _⟩ => show win1_3.index t (1 : Fin 2) * 64 + 1 * q.val = q.val; rw [e1]; omega

/-- WHAT POINT `t` WRITES BACK is block `t` of the combined result of the arrays as the region finds them. -/
theorem flushed_eq (c : Dev nD) (t : Fin cfg1.N) :
    (dat1 V c).flushed 4 t
      = ((cfg1.win 4).blk t).view.read (Elt Ideal)
          (combined (V c main_v0) (V c main_v10) (V c main_v15) (V c main_v16)) := by
  show (cfg1.win 4).cut (grid1.coords t) ((dat1 V c).after 4 t) = _
  rw [after1_4]
  unfold out1_4
  rw [View.canon_unit_zero hz]
  simp only [View.ld_unit_zero (S := S5000x64) hz, View.ld_unit_zero (S := S5000x1) hz, View.ld_unit_zero (S := S1x64) hz]
  obtain ⟨-, -, -, -, -, -, -, -, e8, e9⟩ := idx_facts t
  have ht : t.val < 20 := lt_of_lt_of_eq t.isLt N_1
  funext j
  have hj0 : (j 0).val < 5000 := (j 0).isLt
  have hj1 : (j 1).val < 64 := (j 1).isLt
  show k1_pay1 (F := Ideal) (iblk1 V c 0 t) (iblk1 V c 1 t) (iblk1 V c 2 t) (iblk1 V c 3 t) j
    = combined (V c main_v0) (V c main_v10) (V c main_v15) (V c main_v16) (((cfg1.win 4).blk t).view.emb j)
  refine (pay_at _ _ _ _ j ⟨(j 0).val, hj0⟩ ⟨(j 1).val, hj1⟩ rfl rfl).trans ?_
  rw [combined_at _ _ _ _ _ ⟨t.val * 5000 + (j 0).val, by omega⟩ ⟨(j 1).val, hj1⟩
    (by show win1_4.index t (0 : Fin 2) * 5000 + 1 * (j 0).val = t.val * 5000 + (j 0).val; rw [e8]; omega)
    (by show win1_4.index t (1 : Fin 2) * 64 + 1 * (j 1).val = (j 1).val; rw [e9]; omega)]
  unfold combinedAt
  rw [yblk_apply V c t ⟨(j 0).val, hj0⟩ ⟨(j 1).val, hj1⟩ ⟨t.val * 5000 + (j 0).val, by omega⟩ rfl,
    sblk_apply V c t ⟨(j 0).val, hj0⟩ ⟨(j 1).val, hj1⟩ ⟨t.val * 5000 + (j 0).val, by omega⟩ rfl,
    dblk_apply V c t ⟨(j 0).val, hj0⟩ ⟨t.val * 5000 + (j 0).val, by omega⟩ rfl,
    bblk_apply V c t ⟨(j 1).val, hj1⟩]

/-- An index of the result is in point `t`'s block iff each coordinate is in the block's range on its axis. -/
theorem mem_blk (t : Fin cfg1.N) (i : S100000x64.Idx) :
    i ∈ ((cfg1.win 4).blk t).view.set ↔ ∀ a : Fin 2, win1_4.index t a * S5000x64.size a ≤ (i a).val
      ∧ (i a).val < win1_4.index t a * S5000x64.size a + S5000x64.size a := by
  show i ∈ ((View.whole main_v17).slice (win1_4.rect t)).set ↔ _
  rw [View.set_slice_whole, Rect.mem_set_unit]
  exact Iff.rfl

/-- The 20 blocks of 5000 rows tile the result: row `p` is in the block of point `p / 5000`. -/
theorem covered (i : S100000x64.Idx) :
    ∃ t : Fin cfg1.N, (cfg1.win 4).flush t = true ∧ i ∈ ((cfg1.win 4).blk t).view.set := by
  have hi0 : (i 0).val < 100000 := (i 0).isLt
  have hi1 : (i 1).val < 64 := (i 1).isLt
  obtain ⟨t, ht⟩ := idx_onto ⟨(i 0).val / 5000, by omega⟩
  have q0 : win1_4.index t (0 : Fin 2) = (i 0).val / 5000 := congrFun ht 0
  have q1 : win1_4.index t (1 : Fin 2) = 0 := congrFun ht 1
  refine ⟨t, flush1_4 t, ?_⟩
  rw [mem_blk]
  intro a
  match a with
  | ⟨0, _⟩ =>
    show win1_4.index t (0 : Fin 2) * 5000 ≤ (i 0).val ∧ (i 0).val < win1_4.index t (0 : Fin 2) * 5000 + 5000
    omega
  | ⟨1, _⟩ =>
    show win1_4.index t (1 : Fin 2) * 64 ≤ (i 1).val ∧ (i 1).val < win1_4.index t (1 : Fin 2) * 64 + 64
    omega

/-- THE RESULT ARRAY of the second region: the combined result of the arrays as the region finds them. -/
theorem final (c : Dev nD) :
    (dat1 V c).arrAt 4 cfg1.N = combined (V c main_v0) (V c main_v10) (V c main_v15) (V c main_v16) :=
  (dat1 V c).arrAt_eq_of_cover 4 _ (fun t _ => flushed_eq V c t) covered

end Cert.KernelIdeal.Combine

end
-- ==== Proof.Middle.lean ====
/-
  Between the two regions: the host's operations, read as functions of the arrays they start from.

  After the first region has left the projected features `y : [100000, 64]`, the host gathers the rows of `y` named by
  the edges' source indices (a negative index wrapped once by the number of nodes, then clamped), scatter-adds those rows
  into a zero array at the edges' destination indices (the neighbours' sums), scatter-adds a one per edge into a zero
  vector at the same destinations (the in-degree), gives the degree a unit column axis and the bias a unit row axis.
  None of this touches `y`. Each of the four arrays the second region reads is stated here as one function of the
  arrays the operations start from, at arbitrary contents of the buffers; and the second region's result over these four
  is, entry by entry, the "project, then aggregate" arrangement of Spec.lean: the edges that arrive at node `p` are the
  edges whose destination index is `p`, the feature row an edge brings is the row its source index selects, and the
  in-degree of `p` is the scattered count.
-/
import proofs.«180629_j78245714198552_2_alg».proof.Proof.Gen.KernelIdeal.Frame
import proofs.«180629_j78245714198552_2_alg».proof.Proof.Project
import proofs.«180629_j78245714198552_2_alg».proof.Proof.Combine
import proofs.«180629_j78245714198552_2_alg».proof.Proof.Spec
import proofs.«180629_j78245714198552_2_alg».proof.Proof.LibScatterRows
import proofs.«180629_j78245714198552_2_alg».proof.Proof.LibRowGather
import proofs.«180629_j78245714198552_2_alg».proof.Proof.LibColumn
import Idealize.ShloMosaic.Lib.StableHlo.Run
import Idealize.ShloMosaic.Lib.ValueLayout
import Idealize.ShloMosaic.Lib.ValueIdx

noncomputable section

open Idealize.ShloMosaic Idealize.ShloMosaic.TcCoe Idealize.SL.Sem Idealize.ShloMosaic.ValueIdx
open Idealize.ShloMosaic.StableHlo
open scoped BigOperators

namespace Cert.KernelIdeal.Middle

open Cert.KernelIdeal Cert.KernelIdeal.Gen

/-- The edges' source indices as a column: an index below zero is wrapped once by the number of nodes. -/
def srcIdx (x1 : IVec S800000 32) : IVec S800000x1 32 :=
  broadcastInDim S800000x1 ![0] bcast_S800000_S800000x1_0
    (select (cmpi .slt x1 (broadcastInDim S800000 ![] bcast_S_S800000 (constantI S_ 32 0#32)))
      (addi x1 (broadcastInDim S800000 ![] bcast_S_S800000 (constantI S_ 32 100000#32))) x1)

/-- The edges' destination indices as a column. -/
def dstIdx (x2 : IVec S800000 32) : IVec S800000x1 32 :=
  broadcastInDim S800000x1 ![0] bcast_S800000_S800000x1_0 x2

/-- The neighbours' sums: the rows of `y` the source indices select, scatter-added into zeros at the destinations. -/
def nsum (y : S100000x64.Idx → EReal) (x1 x2 : IVec S800000 32) : S100000x64.Idx → EReal :=
  Host.scatterAdd scatter_S100000x64_S800000x1_S800000x64_1_0_0_1
    (broadcastInDim S100000x64 ![] bcast_S_S100000x64 (constant (F := Ideal) S_ .f32 0x00000000#32)) (dstIdx x2)
    (Host.gather gather_S100000x64_S800000x1_S800000x64_1_0_n_n_0_1_164 y (srcIdx x1))

/-- The in-degree: a one per edge, scatter-added into zeros at the destinations. -/
def degv (x2 : IVec S800000 32) : S100000.Idx → EReal :=
  Host.scatterAdd scatter_S100000_S800000x1_S800000_n_0_0_1
    (broadcastInDim S100000 ![] bcast_S_S100000 (constant (F := Ideal) S_ .f32 0x00000000#32)) (dstIdx x2)
    (broadcastInDim S800000 ![] bcast_S_S800000 (constant (F := Ideal) S_ .f32 0x3F800000#32))

/-- The in-degree with a unit column axis. -/
def degcol (x2 : IVec S800000 32) : S100000x1.Idx → EReal :=
  shapeCast S100000x1 (degv x2) shapeCasts_S100000_S100000x1

/-- The bias with a unit row axis. -/
def biasrow (x4 : S64.Idx → EReal) : S1x64.Idx → EReal :=
  shapeCast S1x64 x4 shapeCasts_S64_S1x64

/-- No host operation writes the projected features. -/
theorem after_v0 (W : Valuation τ sig (Elt Ideal)) :
    StableHlo.after (hostOps1 (F := Ideal)) W (Proc.devRef .tc main_v0) = W (Proc.devRef .tc main_v0) := by
  after_results

/-- The neighbours' sums' buffer after the host operations. -/
theorem after_v10 (W : Valuation τ sig (Elt Ideal)) :
    (StableHlo.after (hostOps1 (F := Ideal)) W (Proc.devRef .tc main_v10) : S100000x64.Idx → EReal)
      = nsum (W (Proc.devRef .tc main_v0)) (W (Proc.devRef .tc main_arg1)) (W (Proc.devRef .tc main_arg2)) := by
  after_results
  rfl

/-- The degree column's buffer after the host operations. -/
theorem after_v15 (W : Valuation τ sig (Elt Ideal)) :
    (StableHlo.after (hostOps1 (F := Ideal)) W (Proc.devRef .tc main_v15) : S100000x1.Idx → EReal)
      = degcol (W (Proc.devRef .tc main_arg2)) := by
  after_results
  rfl

/-- The bias row's buffer after the host operations. -/
theorem after_v16 (W : Valuation τ sig (Elt Ideal)) :
    (StableHlo.after (hostOps1 (F := Ideal)) W (Proc.devRef .tc main_v16) : S1x64.Idx → EReal)
      = biasrow (W (Proc.devRef .tc main_arg4)) := by
  after_results
  rfl

/-- The neighbours' sums are the exact scatter-add of the gathered rows into zeros. -/
theorem nsum_def (y : S100000x64.Idx → EReal) (x1 x2 : IVec S800000 32) :
    nsum y x1 x2 = Ideal.hostScatterAdd scatter_S100000x64_S800000x1_S800000x64_1_0_0_1
      (broadcastInDim S100000x64 ![] bcast_S_S100000x64 (constant (F := Ideal) S_ .f32 0x00000000#32)) (dstIdx x2)
      (Host.gather gather_S100000x64_S800000x1_S800000x64_1_0_n_n_0_1_164 y (srcIdx x1)) := rfl

/-- The neighbours' sums of the projected features at `(p, q)`: zero plus the sum, over the edges that arrive at `p`, of
    the projected row each brings, at class `q`. -/
theorem nsum_apply (x : S100000x128.Idx → EReal) (w : S64x128.Idx → EReal) (x1 x2 : IVec S800000 32) (p : Fin 100000) (q : Fin 64) :
    nsum (Cert.KernelIdeal.Project.projected x w) x1 x2 (ix2 p q)
      = Cert.Sage.zeroW + ∑ e ∈ Cert.LibScatterRows.arriving (dstIdx x2) 100000 p,
          Cert.Sage.project (N := 100000) (K := 128) (C := 64) x w (Cert.LibRowGather.rowOf 100000 (by decide) (srcIdx x1) e) q := by
  rw [nsum_def]
  rw [Cert.LibScatterRows.scatterAdd_rows_apply scatter_S100000x64_S800000x1_S800000x64_1_0_0_1 rfl rfl rfl rfl]
  rw [Cert.LibColumn.broadcastInDim_scalar_apply, constant_apply]
  refine congrArg (Cert.Sage.zeroW + ·) (Finset.sum_congr rfl fun e _ => ?_)
  rw [Cert.LibRowGather.gather_rows_apply (by decide) _ rfl rfl rfl rfl rfl rfl rfl, Cert.KernelIdeal.Project.projected_apply]

/-- The degree column at `(p, 0)` is the degree at `p`. -/
theorem degcol_apply (x2 : IVec S800000 32) (p : Fin 100000) : degcol x2 (ix2 p (0 : Fin 1)) = degv x2 (ix1 p) := by
  unfold degcol
  exact Cert.LibColumn.shapeCast_a_a1_apply _ _ p 0

/-- The bias row at `(0, q)` is the bias at `q`. -/
theorem biasrow_apply (x4 : S64.Idx → EReal) (q : Fin 64) : biasrow x4 (ix2 (0 : Fin 1) q) = x4 (ix1 q) := by
  unfold biasrow
  exact shapeCast_a_1a_apply _ _ 0 q

/-- THE SECOND REGION'S RESULT OVER THE HOST'S ARRAYS, read at node `p`, class `q`: the "project, then aggregate"
    arrangement of the layer, with the edges that arrive at `p` those whose destination index is `p`, the row an edge
    brings the one its source index selects, and the in-degree the scattered count. -/
theorem combined_apply_projectAgg (x : S100000x128.Idx → EReal) (w : S64x128.Idx → EReal) (x1 x2 : IVec S800000 32) (x4 : S64.Idx → EReal) (p : Fin 100000) (q : Fin 64) :
    Cert.KernelIdeal.Combine.combined (Cert.KernelIdeal.Project.projected x w) (nsum (Cert.KernelIdeal.Project.projected x w) x1 x2) (degcol x2) (biasrow x4) (ix2 p q)
      = Cert.Sage.projectAgg (N := 100000) (E := 800000) (K := 128) (C := 64) (Cert.LibRowGather.rowOf 100000 (by decide) (srcIdx x1)) (Cert.LibScatterRows.arriving (dstIdx x2) 100000) (fun v => degv x2 (ix1 v)) x w x4 p q := by
  rw [Cert.KernelIdeal.Combine.combined_apply]
  unfold Cert.KernelIdeal.Combine.combinedAt Cert.Sage.projectAgg
  rw [nsum_apply, degcol_apply, biasrow_apply, Cert.KernelIdeal.Project.projected_apply]

end Cert.KernelIdeal.Middle

end
-- ==== Proof.KernelRun.lean ====
/-
  The kernel program's run, with its result named.

  The program is a first region (the projection), a stretch of host operations (the gather and the two scatter-adds),
  and a second region (normalize and add the bias). Every weakly fair execution terminates with every buffer of the
  core at the contents the three segments leave one after the other; in particular the result buffer holds what the
  second region's write-backs leave, and the argument arrays are as launched.
-/
import proofs.«180629_j78245714198552_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result buffer at the contents the last segment
    leaves and the five argument arrays as launched. -/
theorem run_result : θ_run defs (onTc (τ := τ) (main (F := F))) ⟨m, fun _ => 0, ρ⟩ (fun r => ∀ c : Dev nD,
      r.2.mem ((c.tc : Thread nD τ).loc main_v17) = W3 m ρ c (Proc.devRef .tc main_v17)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v17 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c)⟩)

end Cert.KernelIdeal.Run

end
-- ==== Proof.KernelValue.lean ====
/-
  The kernel program's result as one function of its launch arrays.

  The result buffer ends at what the second region's write-backs leave: the combined (normalized, biased) array of the
  four arrays that region finds — the projected features the first region wrote, and the neighbours' sums, the degree
  column and the bias row the host stretch computed from them and from the edge lists. Walking the three segments back
  to the launch memory gives the result as a function of the five arguments.
-/
import proofs.«180629_j78245714198552_2_alg».proof.Proof.KernelRun
import proofs.«180629_j78245714198552_2_alg».proof.Proof.Project
import proofs.«180629_j78245714198552_2_alg».proof.Proof.Combine
import proofs.«180629_j78245714198552_2_alg».proof.Proof.Middle

set_option maxRecDepth 16384

noncomputable section

namespace Cert.KernelIdeal.KernelValue

open Cert.KernelIdeal Cert.KernelIdeal.Gen
open Idealize.ShloMosaic Idealize.ShloMosaic.TcCoe Idealize.SL.Sem Idealize.ShloMosaic.ValueIdx

/-- The result array from the five argument arrays: project, aggregate over the in-edges, normalize, add the bias. -/
def result (x : S100000x128.Idx → EReal) (x1 x2 : IVec S800000 32) (w : S64x128.Idx → EReal) (x4 : S64.Idx → EReal) :
    S100000x64.Idx → EReal :=
  Combine.combined (Project.projected x w) (Middle.nsum (Project.projected x w) x1 x2) (Middle.degcol x2) (Middle.biasrow x4)

variable (m : (ℓ : Loc nD τ sig) → Buf (Elt Ideal) ℓ) (ρ : Dev nD → PrngReg)

/-- The first region's result array, from the launch memory. -/
theorem W1_v0 (c : Dev nD) :
    (W1 m ρ c (Proc.devRef .tc main_v0) : S100000x64.Idx → EReal)
      = Project.projected (m ((c.tc : Thread nD τ).loc main_arg0)) (m ((c.tc : Thread nD τ).loc main_arg3)) :=
  (W1_arr m ρ c 2).trans (Project.final (V0 m ρ) c)

/-- THE RESULT BUFFER after the run, as the function of the launch arrays. -/
theorem W3_result (c : Dev nD) :
    (W3 m ρ c (Proc.devRef .tc main_v17) : S100000x64.Idx → EReal)
      = result (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) := by
  have h1 : W3 m ρ c (Proc.devRef .tc main_v17) = (dat1 (V2 m ρ) c).arrAt 4 cfg1.N := W3_arr m ρ c 4
  rw [h1, Combine.final (V2 m ρ) c]
  have a1 : W1 m ρ c (Proc.devRef .tc main_arg1) = m ((c.tc : Thread nD τ).loc main_arg1) :=
    W1_of_ne m ρ c main_arg1 (by decide)
  have a2 : W1 m ρ c (Proc.devRef .tc main_arg2) = m ((c.tc : Thread nD τ).loc main_arg2) :=
    W1_of_ne m ρ c main_arg2 (by decide)
  have a4 : W1 m ρ c (Proc.devRef .tc main_arg4) = m ((c.tc : Thread nD τ).loc main_arg4) :=
    W1_of_ne m ρ c main_arg4 (by decide)
  have e0 : (V2 m ρ c main_v0 : S100000x64.Idx → EReal)
      = Project.projected (m ((c.tc : Thread nD τ).loc main_arg0)) (m ((c.tc : Thread nD τ).loc main_arg3)) :=
    (Middle.after_v0 (W1 m ρ c)).trans (W1_v0 m ρ c)
  have e10 : (V2 m ρ c main_v10 : S100000x64.Idx → EReal)
      = Middle.nsum (Project.projected (m ((c.tc : Thread nD τ).loc main_arg0)) (m ((c.tc : Thread nD τ).loc main_arg3)))
          (m ((c.tc : Thread nD τ).loc main_arg1)) (m ((c.tc : Thread nD τ).loc main_arg2)) := by
    refine (Middle.after_v10 (W1 m ρ c)).trans ?_
    rw [W1_v0 m ρ c, a1, a2]
  have e15 : (V2 m ρ c main_v15 : S100000x1.Idx → EReal) = Middle.degcol (m ((c.tc : Thread nD τ).loc main_arg2)) := by
    refine (Middle.after_v15 (W1 m ρ c)).trans ?_
    rw [a2]
  have e16 : (V2 m ρ c main_v16 : S1x64.Idx → EReal) = Middle.biasrow (m ((c.tc : Thread nD τ).loc main_arg4)) := by
    refine (Middle.after_v16 (W1 m ρ c)).trans ?_
    rw [a4]
  rw [e0, e10, e15, e16]
  rfl

end Cert.KernelIdeal.KernelValue

end
-- ==== Proof.lean ====
/-
  A graph layer with mean aggregation: the kernel program against its reference, on the extended reals.

  The reference gathers each edge's source feature row, sums the rows arriving at each node, adds the node's own row,
  divides by the in-degree plus one, and applies the linear layer `h · wᵀ + b`. The kernel program applies the product
  with `wᵀ` FIRST (a first region, row block by row block), gathers and sums the projected rows on the host, and
  normalizes and adds the bias in a second region. The two results agree because the product with `wᵀ` is linear:
  it commutes with the sum over the arriving edges and with the division by a nonzero real. Linearity fails at the
  infinities, so the finiteness of the features and of the weights is used; the in-degree is a natural number, so the
  divisor is a nonzero real whatever the edge lists hold; the bias may be any extended real.

  The modules: `Spec` states the two arrangements, `Linear` proves them equal, `Finite` reads the precondition,
  `LibScatterRows` / `LibRowGather` read the scatter-add and the gather of whole rows at an index, `RefValue` reads the
  reference's result as the first arrangement, `Project` / `Combine` / `Middle` / `KernelValue` read the kernel program's
  result buffer as the second, `KernelRun` is its run.
-/
import proofs.«180629_j78245714198552_2_alg».proof.Defs
import proofs.«180629_j78245714198552_2_alg».proof.Proof.Gen.Kernel
import proofs.«180629_j78245714198552_2_alg».proof.Proof.Gen.Kernel.Frame
import proofs.«180629_j78245714198552_2_alg».proof.Proof.Gen.KernelIdeal
import proofs.«180629_j78245714198552_2_alg».proof.Proof.Gen.KernelIdeal.Frame
import proofs.«180629_j78245714198552_2_alg».proof.Proof.Gen.ReferenceIdeal
import proofs.«180629_j78245714198552_2_alg».proof.Proof.Gen.ReferenceIdeal.Run
import proofs.«180629_j78245714198552_2_alg».proof.Proof.Gen.ReferenceIdeal.Read
import proofs.«180629_j78245714198552_2_alg».proof.Proof.Gen.Pre_finite_inputs
import proofs.«180629_j78245714198552_2_alg».proof.Proof.Spec
import proofs.«180629_j78245714198552_2_alg».proof.Proof.Linear
import proofs.«180629_j78245714198552_2_alg».proof.Proof.Finite
import proofs.«180629_j78245714198552_2_alg».proof.Proof.RefValue
import proofs.«180629_j78245714198552_2_alg».proof.Proof.Middle
import proofs.«180629_j78245714198552_2_alg».proof.Proof.KernelRun
import proofs.«180629_j78245714198552_2_alg».proof.Proof.KernelValue
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx

/-- The kernel program's degree vector is the scatter-add of ones into zeros. -/
theorem degree_def (x2 : IVec Cert.KernelIdeal.S800000 32) : Cert.KernelIdeal.Middle.degv x2
    = Ideal.hostScatterAdd Cert.KernelIdeal.scatter_S100000_S800000x1_S800000_n_0_0_1 (fun _ => Cert.Sage.zeroW)
        (Cert.KernelIdeal.Middle.dstIdx x2) (fun _ => Cert.Sage.oneW) := rfl

/-- The divisor, the in-degree plus one, is a nonzero real whatever the edge lists hold. -/
theorem divisor_real (x2 : IVec Cert.KernelIdeal.S800000 32) (p : Fin 100000) :
    ∃ r : ℝ, r ≠ 0 ∧ (fun v => Cert.KernelIdeal.Middle.degv x2 (ix1 v)) p + Cert.Sage.oneW = (r : EReal) := by
  show ∃ r : ℝ, r ≠ 0 ∧ Cert.KernelIdeal.Middle.degv x2 (ix1 p) + Cert.Sage.oneW = (r : EReal)
  rw [degree_def]
  exact Cert.Sage.scatter_ones_add_one _ _ _

/-- The reference's result and the kernel program's are one function of the five arrays, when the features and the
    weights are real: at node `p`, class `q` the reference is the aggregate-then-project arrangement, the kernel program
    the project-then-aggregate one, over the same gathered rows, the same arriving edges and the same degree. -/
theorem result_eq (x : Cert.KernelIdeal.S100000x128.Idx → EReal) (x1 x2 : IVec Cert.KernelIdeal.S800000 32)
    (w : Cert.KernelIdeal.S64x128.Idx → EReal) (x4 : Cert.KernelIdeal.S64.Idx → EReal)
    (hx : ∀ i, ∃ r : ℝ, x i = (r : EReal)) (hw : ∀ i, ∃ r : ℝ, w i = (r : EReal)) :
    Cert.ReferenceIdeal.Read.val_main_v23 (F := Ideal) x x1 x2 w x4 = Cert.KernelIdeal.KernelValue.result x x1 x2 w x4 := by
  funext i
  obtain ⟨p, q, rfl⟩ : ∃ (p : Fin 100000) (q : Fin 64), i = ix2 p q := ⟨i 0, i 1, eq_ix2 i⟩
  have hs : Cert.KernelIdeal.Middle.srcIdx x1 = Cert.ReferenceIdeal.Read.val_main_v5 (F := Ideal) x1 := rfl
  have hdst : Cert.KernelIdeal.Middle.dstIdx x2 = Cert.ReferenceIdeal.Read.val_main_v8 (F := Ideal) x2 := rfl
  have hdeg : Cert.KernelIdeal.Middle.degv x2 = Cert.ReferenceIdeal.Read.val_main_v13 (F := Ideal) x2 := rfl
  have hd := divisor_real x2 p
  rw [Cert.ReferenceIdeal.RefValue.reference_apply]
  unfold Cert.KernelIdeal.KernelValue.result
  rw [Cert.KernelIdeal.Middle.combined_apply_projectAgg,
    Cert.Sage.projectAgg_eq_aggProject (N := 100000) (E := 800000) (K := 128) (C := 64)
      (Cert.LibRowGather.rowOf 100000 (by decide) (Cert.KernelIdeal.Middle.srcIdx x1))
      (Cert.LibScatterRows.arriving (Cert.KernelIdeal.Middle.dstIdx x2) 100000)
      (fun v => Cert.KernelIdeal.Middle.degv x2 (ix1 v)) x w x4 p q hx hw hd, hs, hdst, hdeg]

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs run, and the result buffers hold the same array: the kernel
    program's is the function `KernelValue.result` of the launch arrays, the reference's the composed term of its
    operations, and under the finiteness precondition these are one function (`result_eq`). -/
theorem algebraic : Cert.algebraic_KernelIdeal_ReferenceIdeal := by
  intro m ρ m' ρ' hpre hagree
  refine ⟨fun c => Cert.KernelIdeal.Gen.W3 m ρ c (Proc.devRef .tc Cert.KernelIdeal.main_v17),
    Cert.KernelIdeal.Run.run_result (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨g0, g1, g2, g3, g4⟩ := hagree c
  obtain ⟨hx, hw⟩ := Cert.Sage.Finite.reals_of_pre _ _ _ _ _ (hpre c)
  rw [g0, g1, g2, g3, g4]
  show _ = Cert.KernelIdeal.Gen.W3 m ρ c (Proc.devRef .tc Cert.KernelIdeal.main_v17)
  rw [Cert.KernelIdeal.KernelValue.W3_result m ρ c]
  exact (Cert.ReferenceIdeal.Read.val_main_v23_eq _ _ _ _ _).trans (result_eq _ _ _ _ _ hx hw)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
